-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16x256 : Shape := ⟨3, ![50000, 16, 256]⟩
abbrev S256x256 : Shape := ⟨2, ![256, 256]⟩
abbrev S256 : Shape := ⟨1, ![256]⟩
abbrev S_ : Shape := ⟨0, ![]⟩

class Facts : Prop where
  bcast_S_S50000x16x256 : S_.BroadcastsInDim S50000x16x256 (![] : Fin 0 → Fin S50000x16x256.rank)
  reducesTo_S50000x16x256_S_d0_1_2 : S50000x16x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x16x256 .f32) (main_arg1 : FVec F S256x256 .f32) (main_arg2 : FVec F S256 .f32) : IVec S_ 1 :=
  let main_v0 : FVec F S50000x16x256 .f32 := Host.absf main_arg0
  let main_cst : FVec F S_ .f32 := constant S_ .f32 0x7F800000#32
  let main_v1 : FVec F S50000x16x256 .f32 := broadcastInDim S50000x16x256 ![] bcast_S_S50000x16x256 main_cst
  let main_v2 : IVec S50000x16x256 1 := cmpf .olt main_v0 main_v1
  let main_c : IVec S_ 1 := constantI S_ 1 1#1
  let main_v3 : IVec S_ 1 := (fun x v => Host.reduce IntOp.andi x v reducesTo_S50000x16x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x16x256 : Shape := ⟨3, ![50000, 16, 256]⟩
abbrev S256x256 : Shape := ⟨2, ![256, 256]⟩
abbrev S256 : Shape := ⟨1, ![256]⟩
abbrev S1x256 : Shape := ⟨2, ![1, 256]⟩
abbrev S400x16x256 : Shape := ⟨3, ![400, 16, 256]⟩
abbrev S400x256 : Shape := ⟨2, ![400, 256]⟩
abbrev S400x1x256 : Shape := ⟨3, ![400, 1, 256]⟩

abbrev nBuf : Space → Nat
  | .hbm => 6
  | .vmem => 6
  | .smem => 0
  | _ => 0

abbrev bufTy : (tb : Table) → Fin (tcTables nBuf tb) → BufTy
  | .hbm, ⟨0, _⟩ => ⟨S50000x16x256, .f32⟩
  | .hbm, ⟨1, _⟩ => ⟨S256x256, .f32⟩
  | .hbm, ⟨2, _⟩ => ⟨S256, .f32⟩
  | .hbm, ⟨3, _⟩ => ⟨S256x256, .bf16⟩
  | .hbm, ⟨4, _⟩ => ⟨S1x256, .f32⟩
  | .hbm, ⟨5, _⟩ => ⟨S50000x16x256, .f32⟩
  | .local _ .vmem, ⟨0, _⟩ => ⟨S400x16x256, .f32⟩
  | .local _ .vmem, ⟨1, _⟩ => ⟨S400x16x256, .f32⟩
  | .local _ .vmem, ⟨2, _⟩ => ⟨S256x256, .bf16⟩
  | .local _ .vmem, ⟨3, _⟩ => ⟨S1x256, .f32⟩
  | .local _ .vmem, ⟨4, _⟩ => ⟨S400x16x256, .f32⟩
  | .local _ .vmem, ⟨5, _⟩ => ⟨S400x16x256, .f32⟩
  | _, _ => ⟨S50000x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S256_S1x256 : S256.ShapeCasts S1x256
  inb_S400x16x256_S400x16x256_0_0_0 : ∀ a, (![0, 0, 0] : Fin 3 → Nat) a + S400x16x256.size a ≤ S400x16x256.size a
  h_S400x16x256 : 0 < S400x16x256.numel
  reduces_S400x16x256_S400x256 : S400x16x256.Reduces [1] S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  shapeCasts_S400x256_S400x1x256 : S400x256.ShapeCasts S400x1x256
  broadcasts_S400x1x256_S400x16x256 : S400x1x256.Broadcasts S400x16x256
  dot_S400x256_S256x256_S400x256_1_1_0_0_n_n_wf : DotDims.WF S400x256 S256x256 S400x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x16x256.size a ≤ S50000x16x256.size a
  hwx0_0 : ∀ i : grid0.Coords, EltTy.bits .f32 = 32 ∨ (Rect.block (s := S50000x16x256) S400x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x16x256.size a ≤ S50000x16x256.size a
  hwx0_3 : ∀ i : grid0.Coords, EltTy.bits .f32 = 32 ∨ (Rect.block (s := S50000x16x256) S400x16x256.size (cc0_transform_3 i) (hinb0_3 i)).WholeWords (EltTy.packing .f32)

variable [Facts₀]

def dot_S400x256_S256x256_S400x256_1_1_0_0_n_n : DotDims S400x256 S256x256 S400x256 where
  lhsContracting := [1]
  rhsContracting := [1]
  lhsNonContracting := [0]
  rhsNonContracting := [0]
  lhsBatch := []
  rhsBatch := []
  wf := dot_S400x256_S256x256_S400x256_1_1_0_0_n_n_wf

abbrev win0_0 : Pipeline.Window sig grid0 :=
  Pipeline.Window.ofSpec (Memref.whole main_arg0) S400x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S400x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x16x256 : Shape := ⟨3, ![50000, 16, 256]⟩
abbrev S256x256 : Shape := ⟨2, ![256, 256]⟩
abbrev S256 : Shape := ⟨1, ![256]⟩
abbrev S_ : Shape := ⟨0, ![]⟩
abbrev S50000x256 : Shape := ⟨2, ![50000, 256]⟩
abbrev S50000x1x256 : Shape := ⟨3, ![50000, 1, 256]⟩
abbrev S1x1x256 : Shape := ⟨3, ![1, 1, 256]⟩

abbrev nBuf : Space → Nat
  | .hbm => 22
  | .vmem => 0
  | .smem => 0
  | _ => 0

abbrev bufTy : (tb : Table) → Fin (tcTables nBuf tb) → BufTy
  | .hbm, ⟨0, _⟩ => ⟨S50000x16x256, .f32⟩
  | .hbm, ⟨1, _⟩ => ⟨S256x256, .f32⟩
  | .hbm, ⟨2, _⟩ => ⟨S256, .f32⟩
  | .hbm, ⟨3, _⟩ => ⟨S50000x16x256, .f32⟩
  | .hbm, ⟨4, _⟩ => ⟨S_, .f32⟩
  | .hbm, ⟨5, _⟩ => ⟨S50000x256, .f32⟩
  | .hbm, ⟨6, _⟩ => ⟨S50000x1x256, .f32⟩
  | .hbm, ⟨7, _⟩ => ⟨S50000x1x256, .f32⟩
  | .hbm, ⟨8, _⟩ => ⟨S50000x1x256, .f32⟩
  | .hbm, ⟨9, _⟩ => ⟨S1x1x256, .f32⟩
  | .hbm, ⟨10, _⟩ => ⟨S50000x1x256, .f32⟩
  | .hbm, ⟨11, _⟩ => ⟨S50000x1x256, .f32⟩
  | .hbm, ⟨12, _⟩ => ⟨S50000x1x256, .f32⟩
  | .hbm, ⟨13, _⟩ => ⟨S50000x1x256, .f32⟩
  | .hbm, ⟨14, _⟩ => ⟨S_, .f32⟩
  | .hbm, ⟨15, _⟩ => ⟨S50000x1x256, .f32⟩
  | .hbm, ⟨16, _⟩ => ⟨S50000x1x256, .f32⟩
  | .hbm, ⟨17, _⟩ => ⟨S_, .f32⟩
  | .hbm, ⟨18, _⟩ => ⟨S50000x1x256, .f32⟩
  | .hbm, ⟨19, _⟩ => ⟨S50000x1x256, .f32⟩
  | .hbm, ⟨20, _⟩ => ⟨S50000x16x256, .f32⟩
  | .hbm, ⟨21, _⟩ => ⟨S50000x16x256, .f32⟩
  | _, _ => ⟨S50000x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S50000x256_S50000x1x256_0_2 : S50000x256.BroadcastsInDim S50000x1x256 (![0, 2] : Fin 2 → Fin S50000x1x256.rank)
  bcast_S256_S1x1x256_2 : S256.BroadcastsInDim S1x1x256 (![2] : Fin 1 → Fin S1x1x256.rank)
  bcast_S1x1x256_S50000x1x256_0_1_2 : S1x1x256.BroadcastsInDim S50000x1x256 (![0, 1, 2] : Fin 3 → Fin S50000x1x256.rank)
  bcast_S_S50000x1x256 : S_.BroadcastsInDim S50000x1x256 (![] : Fin 0 → Fin S50000x1x256.rank)
  bcast_S50000x1x256_S50000x16x256_0_1_2 : S50000x1x256.BroadcastsInDim S50000x16x256 (![0, 1, 2] : Fin 3 → Fin S50000x16x256.rank)
  dot_S50000x1x256_S256x256_S50000x1x256_2_1_01_0_n_n_wf : DotDims.WF S50000x1x256 S256x256 S50000x1x256 [2] [1] [0, 1] [0] [] []

variable [Facts₀]

def dot_S50000x1x256_S256x256_S50000x1x256_2_1_01_0_n_n : DotDims S50000x1x256 S256x256 S50000x1x256 where
  lhsContracting := [2]
  rhsContracting := [1]
  lhsNonContracting := [0, 1]
  rhsNonContracting := [0]
  lhsBatch := []
  rhsBatch := []
  wf := dot_S50000x1x256_S256x256_S50000x1x256_2_1_01_0_n_n_wf

class Facts : Prop extends Facts₀ where

variable [Facts]
-- ==== Proof.GateSpec.lean ====
/-
  The mathematics both programs compute, stated once with no program in sight.

  A node `n` carries a 16 × 256 slab `r k e` (spectral component `k`, feature `e`).  Its norm vector is
  `ν e = sqrt (Σ_k r k e · r k e)`; a linear map of the norm, `λ d = Σ_e ν e · W d e + b d`, is squashed by the
  logistic function into a gate `γ d = 1 / (1 + exp (-λ d))`, and every component of the slab is multiplied by the
  gate of its feature: `out k d = r k d · γ d`.  All of it on the extended reals.
-/
import Idealize.ShloMosaic.PureOps.Ideal
import Idealize.ShloMosaic.PureOps.Ideal.Laws
import Idealize.ShloMosaic.Lib.ValueIdx

noncomputable section

namespace Cert.NormGate

open Idealize.ShloMosaic Idealize.ShloMosaic.ValueIdx

/-- The gate of one node at feature `d`, from the node's slab `r`, the weight matrix `W` (row `d` is contracted
    against the norm vector) and the bias `b`. -/
def gateRow (r : Fin 16 → Fin 256 → EReal) (W : Fin 256 → Fin 256 → EReal) (b : Fin 256 → EReal) (d : Fin 256) : EReal :=
  Ideal.logistic ((∑ e : Fin 256, Ideal.sqrt (∑ k : Fin 16, r k e * r k e) * W d e) + b d)

/-- The whole result array: entry `(n, k, d)` is the input's entry times the gate of node `n` at feature `d`. -/
def gated (x : (⟨3, ![50000, 16, 256]⟩ : Shape).Idx → EReal) (W : (⟨2, ![256, 256]⟩ : Shape).Idx → EReal)
    (b : (⟨1, ![256]⟩ : Shape).Idx → EReal) : (⟨3, ![50000, 16, 256]⟩ : Shape).Idx → EReal :=
  fun i => x i * gateRow (fun k e => x (ix3 (⟨(i 0).val, (i 0).isLt⟩ : Fin 50000) k e)) (fun d e => W (ix2 d e))
    (fun d => b (ix1 d)) (⟨(i 2).val, (i 2).isLt⟩ : Fin 256)

/-- The single-precision word of `1.0` denotes the real number one. -/
theorem ofBits_one_f32 : Ideal.ofBits .f32 0x3F800000#32 = 1 := by
  simp [Ideal.ofBits, Ideal.ieee, -EReal.coe_mul]; norm_num

/-- The logistic function spelt out as a quotient, `1 / (1 + exp (-y))` with both ones the word of `1.0`, is the
    logistic function, at every extended real. -/
theorem logistic_spelt (y : EReal) :
    Ideal.div (Ideal.ofBits .f32 0x3F800000#32) (Ideal.ofBits .f32 0x3F800000#32 + Ideal.exp (-y)) = Ideal.logistic y := by
  rw [ofBits_one_f32]; rfl

end Cert.NormGate

end
-- ==== Proof.BlockGate.lean ====
/-
  What the kernel body stores for one block of 400 nodes, read at an entry.

  The body squares the block, sums over the 16 spectral components, takes square roots (a 400 × 256 matrix of norms),
  multiplies that matrix by the transposed weight matrix (both operands contracted on their second axis), adds the one
  bias row to every row, applies the logistic function, and multiplies each of the 16 components of every node by the
  node's gate row.  Read at entry `(p, k, d)` of the block this is the block's entry times `gateRow` of node `p`'s
  slab at feature `d`: the narrowing of the norms to sixteen bits is the identity on extended reals, the product into
  a zero accumulator is the plain sum over the contracted feature, and the re-layings (a unit axis added, a row or a
  unit axis repeated) only move entries.
-/
import proofs.«138755_j34772055229039_2_alg».proof.Proof.Gen.KernelIdeal.Skeleton
import proofs.«138755_j34772055229039_2_alg».proof.Proof.GateSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockGate

open Cert.KernelIdeal Cert.KernelIdeal.Gen Idealize.ShloMosaic Idealize.ShloMosaic.ValueIdx Cert.NormGate

/-- The sum over the spectral axis of the squared block, at node `p` and feature `e`. -/
theorem sumSq_apply (x0 : FVec Ideal S400x16x256 .f32) (h : S400x16x256.Reduces [1] S400x256) (hφ : FKind.Formats FTy.f32)
    (hacc : (0x00000000#32 : BitVec 32) = FKind.add.neutral .f32 hφ) (p : Fin 400) (e : Fin 256) :
    multiReduction .add [1] S400x256 (mulf x0 x0) 0x00000000#32 h hφ hacc (ix2 p e)
      = ∑ k : Fin 16, x0 (ix3 p k e) * x0 (ix3 p k e) := by
  refine (Ideal.multiReduction_add_single (mulf x0 x0) 0x00000000#32 h hφ hacc (ix2 p e)).trans ?_
  refine Finset.sum_congr rfl fun k _ => ?_
  have e1 : h.lift (ix2 p e) k = ix3 p k e :=
    funext fun a => Fin.ext (by match a with | ⟨0, _⟩ => rfl | ⟨1, _⟩ => rfl | ⟨2, _⟩ => rfl)
  rw [e1]; rfl

/-- The left operand's row coordinate is the result's row coordinate, whatever the contracted coordinate. -/
theorem lhs_row (j : S400x256.Idx) (q : dot_S400x256_S256x256_S400x256_1_1_0_0_n_n.contr.Idx) :
    (dot_S400x256_S256x256_S400x256_1_1_0_0_n_n.lhsIdx j q 0).val = (j 0).val := by
  unfold DotDims.lhsIdx
  rw [dif_neg (show ¬(0 : Fin S400x256.rank) ∈ dot_S400x256_S256x256_S400x256_1_1_0_0_n_n.lhsBatch by decide),
    dif_pos (show (0 : Fin S400x256.rank) ∈ dot_S400x256_S256x256_S400x256_1_1_0_0_n_n.lhsNonContracting by decide)]
  rfl

/-- The right operand's ROW coordinate is the result's column coordinate: the right operand enters transposed. -/
theorem rhs_row (j : S400x256.Idx) (q : dot_S400x256_S256x256_S400x256_1_1_0_0_n_n.contr.Idx) :
    (dot_S400x256_S256x256_S400x256_1_1_0_0_n_n.rhsIdx j q 0).val = (j 1).val := by
  unfold DotDims.rhsIdx
  rw [dif_neg (show ¬(0 : Fin S256x256.rank) ∈ dot_S400x256_S256x256_S400x256_1_1_0_0_n_n.rhsBatch by decide),
    dif_pos (show (0 : Fin S256x256.rank) ∈ dot_S400x256_S256x256_S400x256_1_1_0_0_n_n.rhsNonContracting by decide)]
  rfl

/-- The product of a 400 × 256 matrix with the TRANSPOSE of a 256 × 256 matrix, accumulated from zero: entry `(p, d)`
    is the sum over the shared feature `e` of the left row `p` against the right ROW `d`. -/
theorem rowsDot_apply (l : FVec Ideal S400x256 .bf16) (r : FVec Ideal S256x256 .bf16) (p : Fin 400) (d : Fin 256) :
    matmul dot_S400x256_S256x256_S400x256_1_1_0_0_n_n none l r (constant S400x256 .f32 0x00000000#32) (ix2 p d)
      = ∑ e : Fin 256, l (ix2 p e) * r (ix2 d e) := by
  refine (Ideal.matmul_constant_zero_apply dot_S400x256_S256x256_S400x256_1_1_0_0_n_n none l r (ix2 p d)).trans ?_
  rw [← Equiv.sum_comp (contrEquiv1 dot_S400x256_S256x256_S400x256_1_1_0_0_n_n 256 rfl rfl).symm]
  refine Finset.sum_congr rfl fun k _ => ?_
  have hk := contrEquiv1_symm_val dot_S400x256_S256x256_S400x256_1_1_0_0_n_n 256 rfl rfl k
  have el : dot_S400x256_S256x256_S400x256_1_1_0_0_n_n.lhsIdx (ix2 p d) ((contrEquiv1 dot_S400x256_S256x256_S400x256_1_1_0_0_n_n 256 rfl rfl).symm k) = ix2 p k :=
    funext fun a => Fin.ext (by
      match a with
      | ⟨0, _⟩ => exact lhs_row _ _
      | ⟨1, _⟩ => exact (dot_S400x256_S256x256_S400x256_1_1_0_0_n_n.lhsIdx_val_of_single rfl _ _).trans hk)
  have er : dot_S400x256_S256x256_S400x256_1_1_0_0_n_n.rhsIdx (ix2 p d) ((contrEquiv1 dot_S400x256_S256x256_S400x256_1_1_0_0_n_n 256 rfl rfl).symm k) = ix2 d k :=
    funext fun a => Fin.ext (by
      match a with
      | ⟨0, _⟩ => exact rhs_row _ _
      | ⟨1, _⟩ => exact (dot_S400x256_S256x256_S400x256_1_1_0_0_n_n.rhsIdx_val_of_single rfl _ _).trans hk)
  rw [el, er]

/-- A 400 × 256 matrix given a unit middle axis: entry `(p, 0, d)` is entry `(p, d)`. -/
theorem unitAxis_apply (v : FVec Ideal S400x256 .f32) (h : S400x256.ShapeCasts S400x1x256) (p : Fin 400) (d : Fin 256) :
    shapeCast S400x1x256 v h (ix3 p (0 : Fin 1) d) = v (ix2 p d) :=
  shapeCast_apply v h _ _ (by
    rw [Shape.rowMajor_val_three, Shape.rowMajor_val_two]
    show p.val * 256 + d.val = (p.val * 1 + 0) * 256 + d.val
    omega)

/-- The unit middle axis repeated 16 times: entry `(p, k, d)` is entry `(p, 0, d)`. -/
theorem repeatAxis_apply (v : FVec Ideal S400x1x256 .f32) (h : S400x1x256.Broadcasts S400x16x256) (p : Fin 400) (k : Fin 16)
    (d : Fin 256) : broadcastTo S400x16x256 v h (ix3 p k d) = v (ix3 p (0 : Fin 1) d) := by
  refine broadcastTo_apply v h (ix3 p k d) (ix3 p (0 : Fin 1) d) fun ax => ?_
  match ax with
  | ⟨0, _⟩ => show p.val = if (400 : Nat) = 1 then 0 else p.val; rw [if_neg (by decide)]
  | ⟨1, _⟩ => show 0 = if (1 : Nat) = 1 then 0 else k.val; rw [if_pos rfl]
  | ⟨2, _⟩ => show d.val = if (256 : Nat) = 1 then 0 else d.val; rw [if_neg (by decide)]

/-- THE BLOCK'S RESULT AT AN ENTRY: the block's entry times the gate of its node at its feature. -/
theorem pay_apply (x0 : Vec Ideal S400x16x256 .f32) (w : Vec Ideal S256x256 .bf16) (bb : Vec Ideal S1x256 .f32)
    (p : Fin 400) (k : Fin 16) (d : Fin 256) :
    k0_pay1 (F := Ideal) x0 w bb (ix3 p k d)
      = x0 (ix3 p k d) * gateRow (fun k e => x0 (ix3 p k e)) (fun d e => w (ix2 d e)) (fun d => bb (ix2 (0 : Fin 1) d)) d := by
  unfold k0_pay1
  refine congrArg (x0 (ix3 p k d) * ·) ?_
  refine (repeatAxis_apply _ _ p k d).trans ?_
  refine (unitAxis_apply _ _ p d).trans ?_
  unfold gateRow
  refine congrArg Ideal.logistic ?_
  refine congrArg₂ (· + ·) ?_ ?_
  · refine (rowsDot_apply _ _ p d).trans ?_
    refine Finset.sum_congr rfl fun e _ => ?_
    refine congrArg₂ (· * ·) ?_ ?_
    · refine congrArg Ideal.sqrt ?_
      exact sumSq_apply x0 _ _ _ p e
    · rw [shapeCast_self]
  · refine (broadcastTo_1b_ab_apply _ _ p d).trans ?_
    rw [shapeCast_self]

end Cert.KernelIdeal.BlockGate

end
-- ==== Proof.WholeArray.lean ====
/-
  From blocks to the whole result array of the idealized kernel.

  The grid has 125 points; point `t` fetches nodes `400 t … 400 t + 399` of the input (all 16 components, all 256
  features), the whole weight matrix (narrowed to sixteen bits before the launch, which changes nothing on extended
  reals) and the bias as one row, and writes back the same nodes of the result.  So what point `t` writes is block `t`
  of ONE function of the three argument arrays, `NormGate.gated`; the 125 blocks cover the array, hence the array ends
  holding `gated` of the arguments.
-/
import proofs.«138755_j34772055229039_2_alg».proof.Proof.Gen.KernelIdeal.Value
import proofs.«138755_j34772055229039_2_alg».proof.Proof.BlockGate
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.NormGate
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the input and the result move one block of nodes per point, the weights and the
    bias stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The weights as the region finds them: the weight argument, entry by entry. -/
theorem V_weights_apply (c : Dev nD) (i : S256x256.Idx) :
    (V m c main_v0 : S256x256.Idx → Ideal .bf16) i = (m ((c : Thread nD τ).loc main_arg1) : S256x256.Idx → Ideal .f32) i := by
  have e : V m c main_v0
      = truncf (F := Ideal) (s := S256x256) (φ := .f32) .bf16 (m ((c : Thread nD τ).loc main_arg1)) bitsLt_bf16_f32 := by
    dsimp only [Gen.V, Gen.hostOps0]; after_results
  rw [e]; rfl

/-- The bias as the region finds it: the bias argument as one row. -/
theorem V_bias_apply (c : Dev nD) (d : Fin 256) :
    (V m c main_v1 : S1x256.Idx → Ideal .f32) (ix2 (0 : Fin 1) d) = (m ((c : Thread nD τ).loc main_arg2) : S256.Idx → Ideal .f32) (ix1 d) := by
  have e : V m c main_v1
      = shapeCast (s := S256) (α := Ideal .f32) S1x256 (m ((c : Thread nD τ).loc main_arg2)) shapeCasts_S256_S1x256 := by
    dsimp only [Gen.V, Gen.hostOps0]; after_results; rfl
  rw [e]
  exact shapeCast_a_1a_apply _ _ (0 : Fin 1) d

/-- Point `t`'s input block is nodes `400 t … 400 t + 399` of the input argument. -/
theorem iblk_x_apply (c : Dev nD) (t : Fin cfg0.N) (p : Fin 400) (k : Fin 16) (e : Fin 256) (hlt : 400 * t.val + p.val < 50000) :
    (iblk m c 0 t : Vec Ideal S400x16x256 .f32) (ix3 p k e)
      = (m ((c : Thread nD τ).loc main_arg0) : S50000x16x256.Idx → Ideal .f32) (ix3 (⟨400 * t.val + p.val, hlt⟩ : Fin 50000) k e) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 400 + 1 * p.val = 400 * t.val + p.val; rw [e0]; omega
  | ⟨1, _⟩ => show win0_0.index t (1 : Fin 3) * 16 + 1 * k.val = k.val; rw [e1]; omega
  | ⟨2, _⟩ => show win0_0.index t (2 : Fin 3) * 256 + 1 * e.val = e.val; rw [e2]; omega

/-- Every point's weight block is the whole weight argument. -/
theorem iblk_w_apply (c : Dev nD) (t : Fin cfg0.N) (d e : Fin 256) :
    (iblk m c 1 t : Vec Ideal S256x256 .bf16) (ix2 d e) = (m ((c : Thread nD τ).loc main_arg1) : S256x256.Idx → Ideal .f32) (ix2 d e) := by
  obtain ⟨-, -, -, e3, e4, -⟩ := idx_facts t
  unfold iblk
  rw [View.read_apply]
  show V m c main_v0 _ = _
  refine (congrArg (V m c main_v0 : S256x256.Idx → Ideal .bf16) (funext fun a => Fin.ext ?_)).trans (V_weights_apply m c (ix2 d e))
  match a with
  | ⟨0, _⟩ => show win0_1.index t (0 : Fin 2) * 256 + 1 * d.val = d.val; rw [e3]; omega
  | ⟨1, _⟩ => show win0_1.index t (1 : Fin 2) * 256 + 1 * e.val = e.val; rw [e4]; omega

/-- Every point's bias block is the bias argument as one row. -/
theorem iblk_b_apply (c : Dev nD) (t : Fin cfg0.N) (d : Fin 256) :
    (iblk m c 2 t : Vec Ideal S1x256 .f32) (ix2 (0 : Fin 1) d) = (m ((c : Thread nD τ).loc main_arg2) : S256.Idx → Ideal .f32) (ix1 d) := by
  obtain ⟨-, -, -, -, -, e5, e6, -⟩ := idx_facts t
  unfold iblk
  rw [View.read_apply]
  show V m c main_v1 _ = _
  refine (congrArg (V m c main_v1 : S1x256.Idx → Ideal .f32) (funext fun a => Fin.ext ?_)).trans (V_bias_apply m c d)
  match a with
  | ⟨0, _⟩ => show win0_2.index t (0 : Fin 2) * 1 + 1 * 0 = 0; rw [e5]
  | ⟨1, _⟩ => show win0_2.index t (1 : Fin 2) * 256 + 1 * d.val = d.val; rw [e6]; omega

/-- WHAT POINT `t` WRITES BACK is block `t` of `gated` of the three argument arrays. -/
theorem flushed_eq (c : Dev nD) (t : Fin cfg0.N) :
    (dats m 0 c).flushed 3 t = ((cfg0.win 3).blk t).view.read (Elt Ideal)
      (gated (m ((c : Thread nD τ).loc main_arg0)) (m ((c : Thread nD τ).loc main_arg1)) (m ((c : Thread nD τ).loc main_arg2))) := by
  rw [flushed3]
  unfold out0_3
  rw [View.canon_unit_zero hz3]
  simp only [View.ld_unit_zero (S := S400x16x256) hz3, View.ld_unit_zero (S := S256x256) hz2, View.ld_unit_zero (S := S1x256) hz2]
  funext j
  obtain ⟨p, k, d, rfl⟩ : ∃ (p : Fin 400) (k : Fin 16) (d : Fin 256), j = ix3 p k d := ⟨j 0, j 1, j 2, eq_ix3 j⟩
  have hN : cfg0.N = 125 := N_0
  have hlt : 400 * t.val + p.val < 50000 := by have := t.isLt; omega
  obtain ⟨-, -, -, -, -, -, -, e7, e8, e9⟩ := idx_facts t
  have hemb : ((cfg0.win 3).blk t).view.emb (ix3 p k d) = ix3 (⟨400 * t.val + p.val, hlt⟩ : Fin 50000) k d :=
    funext fun a => Fin.ext (by
      match a with
      | ⟨0, _⟩ => show win0_3.index t (0 : Fin 3) * 400 + 1 * p.val = 400 * t.val + p.val; rw [e7]; omega
      | ⟨1, _⟩ => show win0_3.index t (1 : Fin 3) * 16 + 1 * k.val = k.val; rw [e8]; omega
      | ⟨2, _⟩ => show win0_3.index t (2 : Fin 3) * 256 + 1 * d.val = d.val; rw [e9]; omega)
  show k0_pay1 (iblk m c 0 t) (iblk m c 1 t) (iblk m c 2 t) (ix3 p k d) = gated _ _ _ (((cfg0.win 3).blk t).view.emb (ix3 p k d))
  rw [hemb]
  refine (BlockGate.pay_apply (iblk m c 0 t) (iblk m c 1 t) (iblk m c 2 t) p k d).trans ?_
  unfold gated
  refine congrArg₂ (· * ·) (iblk_x_apply m c t p k d hlt) ?_
  have h1 : (fun (k : Fin 16) (e : Fin 256) => (iblk m c 0 t : Vec Ideal S400x16x256 .f32) (ix3 p k e))
      = fun k e => (m ((c : Thread nD τ).loc main_arg0) : S50000x16x256.Idx → Ideal .f32) (ix3 (⟨400 * t.val + p.val, hlt⟩ : Fin 50000) k e) :=
    funext fun k => funext fun e => iblk_x_apply m c t p k e hlt
  have h2 : (fun (d e : Fin 256) => (iblk m c 1 t : Vec Ideal S256x256 .bf16) (ix2 d e))
      = fun d e => (m ((c : Thread nD τ).loc main_arg1) : S256x256.Idx → Ideal .f32) (ix2 d e) :=
    funext fun d => funext fun e => iblk_w_apply m c t d e
  have h3 : (fun (d : Fin 256) => (iblk m c 2 t : Vec Ideal S1x256 .f32) (ix2 (0 : Fin 1) d))
      = fun d => (m ((c : Thread nD τ).loc main_arg2) : S256.Idx → Ideal .f32) (ix1 d) :=
    funext fun d => iblk_b_apply m c t d
  rw [h1, h2, h3]

/-- An index of the result array is in point `t`'s block iff each coordinate is in the block's range on its axis. -/
theorem mem_blk (t : Fin cfg0.N) (i : S50000x16x256.Idx) :
    i ∈ ((cfg0.win 3).blk t).view.set ↔ ∀ a : Fin 3, win0_3.index t a * S400x16x256.size a ≤ (i a).val
      ∧ (i a).val < win0_3.index t a * S400x16x256.size a + S400x16x256.size a := by
  show i ∈ ((View.whole main_v2).slice (win0_3.rect t)).set ↔ _
  rw [View.set_slice_whole, Rect.mem_set_unit]
  exact Iff.rfl

/-- Every entry of the result array is in some point's block: node `n` is written by point `n / 400`. -/
theorem cover (i : S50000x16x256.Idx) : ∃ t : Fin cfg0.N, (cfg0.win 3).flush t = true ∧ i ∈ ((cfg0.win 3).blk t).view.set := by
  have hi0 : (i 0).val < 50000 := (i 0).isLt
  have hi1 : (i 1).val < 16 := (i 1).isLt
  have hi2 : (i 2).val < 256 := (i 2).isLt
  have hN : cfg0.N = 125 := N_0
  have ht : (i 0).val / 400 < cfg0.N := by rw [hN]; omega
  obtain ⟨-, -, -, -, -, -, -, e7, e8, e9⟩ := idx_facts ⟨(i 0).val / 400, ht⟩
  refine ⟨⟨(i 0).val / 400, ht⟩, flush0_3 _, ?_⟩
  rw [mem_blk]
  intro a
  match a with
  | ⟨0, _⟩ =>
    show win0_3.index ⟨(i 0).val / 400, ht⟩ (0 : Fin 3) * 400 ≤ (i 0).val ∧ (i 0).val < win0_3.index ⟨(i 0).val / 400, ht⟩ (0 : Fin 3) * 400 + 400
    rw [e7]; show (i 0).val / 400 * 400 ≤ (i 0).val ∧ (i 0).val < (i 0).val / 400 * 400 + 400; omega
  | ⟨1, _⟩ =>
    show win0_3.index ⟨(i 0).val / 400, ht⟩ (1 : Fin 3) * 16 ≤ (i 1).val ∧ (i 1).val < win0_3.index ⟨(i 0).val / 400, ht⟩ (1 : Fin 3) * 16 + 16
    rw [e8]; omega
  | ⟨2, _⟩ =>
    show win0_3.index ⟨(i 0).val / 400, ht⟩ (2 : Fin 3) * 256 ≤ (i 2).val ∧ (i 2).val < win0_3.index ⟨(i 0).val / 400, ht⟩ (2 : Fin 3) * 256 + 256
    rw [e9]; omega

/-- THE RESULT ARRAY after the run is `gated` of the three argument arrays. -/
theorem final (c : Dev nD) : (dats m 0 c).arrAt 3 cfg0.N
    = gated (m ((c : Thread nD τ).loc main_arg0)) (m ((c : Thread nD τ).loc main_arg1)) (m ((c : Thread nD τ).loc main_arg2)) :=
  (dats m 0 c).arrAt_eq_of_cover 3 _ (fun t _ => flushed_eq m c t) cover

/-- The run of the idealized kernel, read: the result at `gated` of the arguments, the arguments unchanged. -/
theorem run : θ_run defs (onTc (τ := τ) (main (F := Ideal))) ⟨m, fun _ => 0, ρ⟩ fun r => ∀ c : Dev nD,
      r.2.mem ((c : Thread nD τ).loc main_v2)
        = gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefGate.lean ====
/-
  The reference, read entry by entry, is `NormGate.gated`.

  The reference squares the input, sums over the spectral axis keeping a unit axis, takes square roots, contracts the
  feature axis of that `[50000, 1, 256]` array against the SECOND axis of the weight matrix, adds the bias (repeated
  over nodes), spells the logistic function as `1 / (1 + exp (-·))`, repeats the unit axis 16 times and multiplies by
  the input.  Each of these steps reads one entry (or one sum of entries) of its operand, so at entry `(n, k, d)` the
  result is the input's entry times `gateRow` of node `n`'s slab at feature `d`.
-/
import proofs.«138755_j34772055229039_2_alg».proof.Proof.Gen.ReferenceIdeal.Read
import proofs.«138755_j34772055229039_2_alg».proof.Proof.GateSpec

noncomputable section

namespace Cert.ReferenceIdeal.RefGate

open Cert.ReferenceIdeal Cert.ReferenceIdeal.Gen Cert.ReferenceIdeal.Read Idealize.ShloMosaic Idealize.ShloMosaic.ValueIdx
open Cert.NormGate

/-- Through the unit axis, the norm's two re-layings and the sum: the squared entry read for result entry `i`,
    contracted feature `e` and component `k` is the input's entry `(i 0, k, e)`. -/
theorem sq_idx (i : S50000x16x256.Idx) (e : Fin 256) (k : Fin 16) :
    idx_main_v1 (idx_main_v2 (lidx_main_v4 (idx_main_v14 i) e)) k = ix3 (⟨(i 0).val, (i 0).isLt⟩ : Fin 50000) k e :=
  funext fun a => Fin.ext (by match a with | ⟨0, _⟩ => rfl | ⟨1, _⟩ => rfl | ⟨2, _⟩ => rfl)

/-- The weight read for result entry `i` and contracted feature `e` is `W (i 2, e)`. -/
theorem w_idx (i : S50000x16x256.Idx) (e : Fin 256) :
    ridx_main_v4 (idx_main_v14 i) e = ix2 (⟨(i 2).val, (i 2).isLt⟩ : Fin 256) e :=
  funext fun a => Fin.ext (by match a with | ⟨0, _⟩ => rfl | ⟨1, _⟩ => rfl)

/-- The bias read for result entry `i` is `b (i 2)`. -/
theorem b_idx (i : S50000x16x256.Idx) :
    idx_main_v5 (idx_main_v6 (idx_main_v14 i)) = ix1 (⟨(i 2).val, (i 2).isLt⟩ : Fin 256) :=
  funext fun a => Fin.ext (by match a with | ⟨0, _⟩ => rfl)

/-- THE REFERENCE'S RESULT is `gated` of its three arguments. -/
theorem ref_eq (x0 : (⟨S50000x16x256, .f32⟩ : BufTy).Contents (Elt Ideal)) (x1 : (⟨S256x256, .f32⟩ : BufTy).Contents (Elt Ideal))
    (x2 : (⟨S256, .f32⟩ : BufTy).Contents (Elt Ideal)) :
    val_main_v15 (F := Ideal) x0 x1 x2 = gated x0 x1 x2 := by
  funext i
  rw [val_main_v15_apply, val_main_v14_apply, val_main_v13_apply, val_main_v12_apply, val_main_cst_1_apply,
    val_main_v11_apply, val_main_v10_apply, val_main_cst_0_apply, val_main_v9_apply, val_main_v8_apply,
    val_main_v7_apply, val_main_v6_apply, val_main_v5_apply, val_main_v4_apply]
  simp only [val_main_v3_apply, val_main_v2_apply, val_main_v1_apply, val_main_v0_apply, val_main_cst_apply,
    sq_idx, w_idx, b_idx]
  unfold gated gateRow
  simp only [Ideal.mulf_def, Ideal.hostDivf_def, Ideal.addf_def, Ideal.hostUnary_exp_def, Ideal.hostNegf_def,
    Ideal.negf_def, Ideal.hostUnary_sqrt_def, Ideal.ofBits_def, Ideal.ofBits_zero_f32, zero_add, logistic_spelt]

end Cert.ReferenceIdeal.RefGate

end
-- ==== Proof.lean ====
/-
  The kernel gates each node's 16 × 256 slab by the logistic function of a linear map of the slab's norm vector:
  `out[n, k, d] = x[n, k, d] · σ(Σ_e sqrt(Σ_k' x[n, k', e]²) · W[d, e] + b[d])`, computed block by block, 400 nodes
  per grid point; the reference computes the same expression on whole arrays with a kept unit axis and the logistic
  function spelt as a quotient.

  On the extended reals the two results are one function of the three arguments, `NormGate.gated` (Proof/GateSpec.lean):
  the kernel's block at an entry is that function (Proof/BlockGate.lean: the narrowing to sixteen bits is the identity,
  the matrix product into zero the plain sum over the contracted feature, the transposed operand read by rows), the
  blocks tile the result array (Proof/WholeArray.lean), and the reference read entry by entry is the same function
  (Proof/RefGate.lean: the quotient `1 / (1 + exp (-y))` is the logistic function at every extended real).  Both sides
  take their sums over the same index sets, so no law needing finite entries is used and the precondition is never
  opened.  The three frames are the generated ones (the reference's is its run with the result dropped), and the
  idealization rewrote no operation, so that conjunct is trivial.
-/
import proofs.«138755_j34772055229039_2_alg».proof.Defs
import proofs.«138755_j34772055229039_2_alg».proof.Proof.Gen.Kernel
import proofs.«138755_j34772055229039_2_alg».proof.Proof.Gen.Kernel.Skeleton
import proofs.«138755_j34772055229039_2_alg».proof.Proof.Gen.Kernel.Launch
import proofs.«138755_j34772055229039_2_alg».proof.Proof.Gen.Kernel.Points
import proofs.«138755_j34772055229039_2_alg».proof.Proof.Gen.Kernel.Frame
import proofs.«138755_j34772055229039_2_alg».proof.Proof.Gen.KernelIdeal
import proofs.«138755_j34772055229039_2_alg».proof.Proof.Gen.KernelIdeal.Skeleton
import proofs.«138755_j34772055229039_2_alg».proof.Proof.Gen.KernelIdeal.Launch
import proofs.«138755_j34772055229039_2_alg».proof.Proof.Gen.KernelIdeal.Points
import proofs.«138755_j34772055229039_2_alg».proof.Proof.Gen.KernelIdeal.Frame
import proofs.«138755_j34772055229039_2_alg».proof.Proof.Gen.ReferenceIdeal
import proofs.«138755_j34772055229039_2_alg».proof.Proof.Gen.Pre_finite_inputs
import proofs.«138755_j34772055229039_2_alg».proof.Proof.Gen.KernelIdeal.Value
import proofs.«138755_j34772055229039_2_alg».proof.Proof.Gen.ReferenceIdeal.Run
import proofs.«138755_j34772055229039_2_alg».proof.Proof.Gen.ReferenceIdeal.Read
import proofs.«138755_j34772055229039_2_alg».proof.Proof.WholeArray
import proofs.«138755_j34772055229039_2_alg».proof.Proof.RefGate
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the result array at `gated` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefGate.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
